-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S256x32 : Shape := ⟨2, ![256, 32]⟩
abbrev S32 : Shape := ⟨1, ![32]⟩
abbrev S1600000 : Shape := ⟨1, ![1600000]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x32 : S_.BroadcastsInDim S256x32 (![] : Fin 0 → Fin S256x32.rank)
  reducesTo_S256x32_S_d0_1 : S256x32.ReducesTo [0, 1] S_
  bcast_S_S32 : S_.BroadcastsInDim S32 (![] : Fin 0 → Fin S32.rank)
  reducesTo_S32_S_d0 : S32.ReducesTo [0] S_

variable [Facts]

def fn {F : FTy → Type} [FloatOps F] (main_arg0 : FVec F S100000x256 .f32) (main_arg1 : FVec F S256x32 .f32) (main_arg2 : FVec F S32 .f32) (main_arg3 : IVec S1600000 32) (main_arg4 : IVec S1600000 32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x32 .f32 := Host.absf main_arg1
  let main_cst_0 : FVec F S_ .f32 := constant S_ .f32 0x7F800000#32
  let main_v5 : FVec F S256x32 .f32 := broadcastInDim S256x32 ![] bcast_S_S256x32 main_cst_0
  let main_v6 : IVec S256x32 1 := cmpf .olt main_v4 main_v5
  let main_c_1 : IVec S_ 1 := constantI S_ 1 1#1
  let main_v7 : IVec S_ 1 := (fun x v => Host.reduce IntOp.andi x v reducesTo_S256x32_S_d0_1 h_S_) main_v6 main_c_1
  let main_v8 : IVec S_ 1 := andi main_v3 main_v7
  let main_v9 : FVec F S32 .f32 := Host.absf main_arg2
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  main_v13
-- ==== Kernel.lean ====
abbrev S100000x256 : Shape := ⟨2, ![100000, 256]⟩
abbrev S256x32 : Shape := ⟨2, ![256, 32]⟩
abbrev S32 : Shape := ⟨1, ![32]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S100000x32 : Shape := ⟨2, ![100000, 32]⟩
abbrev S2000x256 : Shape := ⟨2, ![2000, 256]⟩
abbrev S2000x1 : Shape := ⟨2, ![2000, 1]⟩
abbrev S2000x32 : Shape := ⟨2, ![2000, 32]⟩
abbrev S1600000x32 : Shape := ⟨2, ![1600000, 32]⟩
abbrev S1x32 : Shape := ⟨2, ![1, 32]⟩

abbrev nBuf : Space → Nat
  | .hbm => 43
  | .vmem => 14
  | .smem => 0
  | _ => 0

abbrev bufTy : (tb : Table) → Fin (tcTables nBuf tb) → BufTy
  | .hbm, ⟨0, _⟩ => ⟨S100000x256, .f32⟩
  | .hbm, ⟨1, _⟩ => ⟨S256x32, .f32⟩
  | .hbm, ⟨2, _⟩ => ⟨S32, .f32⟩
  | .hbm, ⟨3, _⟩ => ⟨S1600000, .i32⟩
  | .hbm, ⟨4, _⟩ => ⟨S1600000, .i32⟩
  | .hbm, ⟨5, _⟩ => ⟨S_, .f32⟩
  | .hbm, ⟨6, _⟩ => ⟨S1600000, .f32⟩
  | .hbm, ⟨7, _⟩ => ⟨S_, .f32⟩
  | .hbm, ⟨8, _⟩ => ⟨S100000, .f32⟩
  | .hbm, ⟨9, _⟩ => ⟨S1600000x1, .i32⟩
  | .hbm, ⟨10, _⟩ => ⟨S100000, .f32⟩
  | .hbm, ⟨11, _⟩ => ⟨S_, .f32⟩
  | .hbm, ⟨12, _⟩ => ⟨S100000, .f32⟩
  | .hbm, ⟨13, _⟩ => ⟨S1600000x1, .i32⟩
  | .hbm, ⟨14, _⟩ => ⟨S100000, .f32⟩
  | .hbm, ⟨15, _⟩ => ⟨S_, .f32⟩
  | .hbm, ⟨16, _⟩ => ⟨S_, .f32⟩
  | .hbm, ⟨17, _⟩ => ⟨S100000, .f32⟩
  | .hbm, ⟨18, _⟩ => ⟨S100000, .f32⟩
  | .hbm, ⟨19, _⟩ => ⟨S100000, .f32⟩
  | .hbm, ⟨20, _⟩ => ⟨S_, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S100000, .f32⟩
  | .hbm, ⟨25, _⟩ => ⟨S100000x1, .f32⟩
  | .hbm, ⟨26, _⟩ => ⟨S100000x32, .f32⟩
  | .hbm, ⟨27, _⟩ => ⟨S_, .i32⟩
  | .hbm, ⟨28, _⟩ => ⟨S1600000, .i32⟩
  | .hbm, ⟨29, _⟩ => ⟨S1600000, .i1⟩
  | .hbm, ⟨30, _⟩ => ⟨S_, .i32⟩
  | .hbm, ⟨31, _⟩ => ⟨S1600000, .i32⟩
  | .hbm, ⟨32, _⟩ => ⟨S1600000, .i32⟩
  | .hbm, ⟨33, _⟩ => ⟨S1600000, .i32⟩
  | .hbm, ⟨34, _⟩ => ⟨S1600000x1, .i32⟩
  | .hbm, ⟨35, _⟩ => ⟨S1600000x32, .f32⟩
  | .hbm, ⟨36, _⟩ => ⟨S_, .f32⟩
  | .hbm, ⟨37, _⟩ => ⟨S100000x32, .f32⟩
  | .hbm, ⟨38, _⟩ => ⟨S1600000x1, .i32⟩
  | .hbm, ⟨39, _⟩ => ⟨S100000x32, .f32⟩
  | .hbm, ⟨40, _⟩ => ⟨S100000x1, .f32⟩
  | .hbm, ⟨41, _⟩ => ⟨S1x32, .f32⟩
  | .hbm, ⟨42, _⟩ => ⟨S100000x32, .f32⟩
  | .local _ .vmem, ⟨0, _⟩ => ⟨S2000x256, .f32⟩
  | .local _ .vmem, ⟨1, _⟩ => ⟨S2000x256, .f32⟩
  | .local _ .vmem, ⟨2, _⟩ => ⟨S2000x1, .f32⟩
  | .local _ .vmem, ⟨3, _⟩ => ⟨S2000x1, .f32⟩
  | .local _ .vmem, ⟨4, _⟩ => ⟨S256x32, .f32⟩
  | .local _ .vmem, ⟨5, _⟩ => ⟨S2000x32, .f32⟩
  | .local _ .vmem, ⟨6, _⟩ => ⟨S2000x32, .f32⟩
  | .local _ .vmem, ⟨7, _⟩ => ⟨S2000x32, .f32⟩
  | .local _ .vmem, ⟨8, _⟩ => ⟨S2000x32, .f32⟩
  | .local _ .vmem, ⟨9, _⟩ => ⟨S2000x1, .f32⟩
  | .local _ .vmem, ⟨10, _⟩ => ⟨S2000x1, .f32⟩
  | .local _ .vmem, ⟨11, _⟩ => ⟨S1x32, .f32⟩
  | .local _ .vmem, ⟨12, _⟩ => ⟨S2000x32, .f32⟩
  | .local _ .vmem, ⟨13, _⟩ => ⟨S2000x32, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_call0_v0 : Ref sig .tc := ⟨.hbm, 16, rfl⟩
abbrev main_call0_v1 : Ref sig .tc := ⟨.hbm, 17, rfl⟩
abbrev main_v7 : Ref sig .tc := ⟨.hbm, 18, rfl⟩
abbrev main_v8 : Ref sig .tc := ⟨.hbm, 19, rfl⟩
abbrev main_cst_3 : Ref sig .tc := ⟨.hbm, 20, rfl⟩
abbrev main_call1_v0 : Ref sig .tc := ⟨.hbm, 21, rfl⟩
abbrev main_call1_v1 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_c : Ref sig .tc := ⟨.hbm, 27, rfl⟩
abbrev main_v13 : Ref sig .tc := ⟨.hbm, 28, rfl⟩
abbrev main_v14 : Ref sig .tc := ⟨.hbm, 29, rfl⟩
abbrev main_c_4 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst_5 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x32 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  inb_S2000x256_S2000x256_0_0 : ∀ a, (![0, 0] : Fin 2 → Nat) a + S2000x256.size a ≤ S2000x256.size a
  h_S2000x256 : 0 < S2000x256.numel
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x256 : S2000x1.Broadcasts S2000x256
  bitsLt_bf16_f32 : FTy.bits .bf16 < FTy.bits .f32
  inb_S256x32_S256x32_0_0 : ∀ a, (![0, 0] : Fin 2 → Nat) a + S256x32.size a ≤ S256x32.size a
  h_S256x32 : 0 < S256x32.numel
  inb_S2000x32_S2000x32_0_0 : ∀ a, (![0, 0] : Fin 2 → Nat) a + S2000x32.size a ≤ S2000x32.size a
  h_S2000x32 : 0 < S2000x32.numel
  bcast_S_S100000x32 : S_.BroadcastsInDim S100000x32 (![] : Fin 0 → Fin S100000x32.rank)
  shapeCasts_S32_S1x32 : S32.ShapeCasts S1x32
  shapeCasts_S2000x32_S2000x32 : S2000x32.ShapeCasts S2000x32
  broadcasts_S2000x1_S2000x32 : S2000x1.Broadcasts S2000x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S2000x32 : S1x32.Broadcasts S2000x32
  scatter_S100000_S1600000x1_S1600000_n_0_0_1_wf : ScatterDims.WF S100000 S1600000x1 S1600000 [] [0] [0] 1
  dot_S2000x256_S256x32_S2000x32_1_0_0_1_n_n_wf : DotDims.WF S2000x256 S256x32 S2000x32 [1] [0] [0] [1] [] []
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S100000x256.size a
  hwx0_0 : ∀ i : grid0.Coords, EltTy.bits .f32 = 32 ∨ (Rect.block (s := S100000x256) S2000x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x1.size a ≤ S100000x1.size a
  hwx0_1 : ∀ i : grid0.Coords, EltTy.bits .f32 = 32 ∨ (Rect.block (s := S100000x1) S2000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x32.size a ≤ S256x32.size a
  hwx0_2 : ∀ i : grid0.Coords, EltTy.bits .f32 = 32 ∨ (Rect.block (s := S256x32) S256x32.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x32.size a ≤ S100000x32.size a
  hwx0_3 : ∀ i : grid0.Coords, EltTy.bits .f32 = 32 ∨ (Rect.block (s := S100000x32) S2000x32.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x32.size a ≤ S100000x32.size a
  hwx1_0 : ∀ i : grid1.Coords, EltTy.bits .f32 = 32 ∨ (Rect.block (s := S100000x32) S2000x32.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S100000x1.size a
  hwx1_1 : ∀ i : grid1.Coords, EltTy.bits .f32 = 32 ∨ (Rect.block (s := S100000x1) S2000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x32.size a ≤ S1x32.size a
  hwx1_2 : ∀ i : grid1.Coords, EltTy.bits .f32 = 32 ∨ (Rect.block (s := S1x32) S1x32.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x32.size a ≤ S100000x32.size a
  hwx1_3 : ∀ i : grid1.Coords, EltTy.bits .f32 = 32 ∨ (Rect.block (s := S100000x32) S2000x32.size (cc1_transform_3 i) (hinb1_3 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S2000x256_S256x32_S2000x32_1_0_0_1_n_n : DotDims S2000x256 S256x32 S2000x32 where
  lhsContracting := [1]
  rhsContracting := [0]
  lhsNonContracting := [0]
  rhsNonContracting := [1]
  lhsBatch := []
  rhsBatch := []
  wf := dot_S2000x256_S256x32_S2000x32_1_0_0_1_n_n_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf

abbrev win0_0 : Pipeline.Window sig grid0 :=
  Pipeline.Window.ofSpec (Memref.whole main_arg0) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S2000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S256x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v12) S2000x32.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v22) S2000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v23) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v24) S1x32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v25) S2000x32.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S100000x256 : Shape := ⟨2, ![100000, 256]⟩
abbrev S256x32 : Shape := ⟨2, ![256, 32]⟩
abbrev S32 : Shape := ⟨1, ![32]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S100000x32 : Shape := ⟨2, ![100000, 32]⟩
abbrev S1600000x32 : Shape := ⟨2, ![1600000, 32]⟩
abbrev S1x32 : Shape := ⟨2, ![1, 32]⟩

abbrev nBuf : Space → Nat
  | .hbm => 48
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S256x32, .f32⟩
  | .hbm, ⟨2, _⟩ => ⟨S32, .f32⟩
  | .hbm, ⟨3, _⟩ => ⟨S1600000, .i32⟩
  | .hbm, ⟨4, _⟩ => ⟨S1600000, .i32⟩
  | .hbm, ⟨5, _⟩ => ⟨S_, .f32⟩
  | .hbm, ⟨6, _⟩ => ⟨S1600000, .f32⟩
  | .hbm, ⟨7, _⟩ => ⟨S_, .f32⟩
  | .hbm, ⟨8, _⟩ => ⟨S100000, .f32⟩
  | .hbm, ⟨9, _⟩ => ⟨S1600000x1, .i32⟩
  | .hbm, ⟨10, _⟩ => ⟨S100000, .f32⟩
  | .hbm, ⟨11, _⟩ => ⟨S_, .f32⟩
  | .hbm, ⟨12, _⟩ => ⟨S100000, .f32⟩
  | .hbm, ⟨13, _⟩ => ⟨S1600000x1, .i32⟩
  | .hbm, ⟨14, _⟩ => ⟨S100000, .f32⟩
  | .hbm, ⟨15, _⟩ => ⟨S_, .f32⟩
  | .hbm, ⟨16, _⟩ => ⟨S_, .f32⟩
  | .hbm, ⟨17, _⟩ => ⟨S100000, .f32⟩
  | .hbm, ⟨18, _⟩ => ⟨S100000, .f32⟩
  | .hbm, ⟨19, _⟩ => ⟨S100000, .f32⟩
  | .hbm, ⟨20, _⟩ => ⟨S_, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S100000, .f32⟩
  | .hbm, ⟨25, _⟩ => ⟨S100000x1, .f32⟩
  | .hbm, ⟨26, _⟩ => ⟨S100000x256, .f32⟩
  | .hbm, ⟨27, _⟩ => ⟨S100000x256, .f32⟩
  | .hbm, ⟨28, _⟩ => ⟨S100000x32, .f32⟩
  | .hbm, ⟨29, _⟩ => ⟨S_, .i32⟩
  | .hbm, ⟨30, _⟩ => ⟨S1600000, .i32⟩
  | .hbm, ⟨31, _⟩ => ⟨S1600000, .i1⟩
  | .hbm, ⟨32, _⟩ => ⟨S_, .i32⟩
  | .hbm, ⟨33, _⟩ => ⟨S1600000, .i32⟩
  | .hbm, ⟨34, _⟩ => ⟨S1600000, .i32⟩
  | .hbm, ⟨35, _⟩ => ⟨S1600000, .i32⟩
  | .hbm, ⟨36, _⟩ => ⟨S1600000x1, .i32⟩
  | .hbm, ⟨37, _⟩ => ⟨S1600000x32, .f32⟩
  | .hbm, ⟨38, _⟩ => ⟨S_, .f32⟩
  | .hbm, ⟨39, _⟩ => ⟨S100000x32, .f32⟩
  | .hbm, ⟨40, _⟩ => ⟨S1600000x1, .i32⟩
  | .hbm, ⟨41, _⟩ => ⟨S100000x32, .f32⟩
  | .hbm, ⟨42, _⟩ => ⟨S100000x1, .f32⟩
  | .hbm, ⟨43, _⟩ => ⟨S100000x32, .f32⟩
  | .hbm, ⟨44, _⟩ => ⟨S100000x32, .f32⟩
  | .hbm, ⟨45, _⟩ => ⟨S1x32, .f32⟩
  | .hbm, ⟨46, _⟩ => ⟨S100000x32, .f32⟩
  | .hbm, ⟨47, _⟩ => ⟨S100000x32, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_call0_v0 : Ref sig .tc := ⟨.hbm, 16, rfl⟩
abbrev main_call0_v1 : Ref sig .tc := ⟨.hbm, 17, rfl⟩
abbrev main_v7 : Ref sig .tc := ⟨.hbm, 18, rfl⟩
abbrev main_v8 : Ref sig .tc := ⟨.hbm, 19, rfl⟩
abbrev main_cst_3 : Ref sig .tc := ⟨.hbm, 20, rfl⟩
abbrev main_call1_v0 : Ref sig .tc := ⟨.hbm, 21, rfl⟩
abbrev main_call1_v1 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_4 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_5 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S100000x1_S100000x256_0_1 : S100000x1.BroadcastsInDim S100000x256 (![0, 1] : Fin 2 → Fin S100000x256.rank)
  bcast_S_S100000x32 : S_.BroadcastsInDim S100000x32 (![] : Fin 0 → Fin S100000x32.rank)
  bcast_S100000x1_S100000x32_0_1 : S100000x1.BroadcastsInDim S100000x32 (![0, 1] : Fin 2 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  scatter_S100000_S1600000x1_S1600000_n_0_0_1_wf : ScatterDims.WF S100000 S1600000x1 S1600000 [] [0] [0] 1
  dot_S100000x256_S256x32_S100000x32_1_0_0_1_n_n_wf : DotDims.WF S100000x256 S256x32 S100000x32 [1] [0] [0] [1] [] []
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x256_S256x32_S100000x32_1_0_0_1_n_n : DotDims S100000x256 S256x32 S100000x32 where
  lhsContracting := [1]
  rhsContracting := [0]
  lhsNonContracting := [0]
  rhsNonContracting := [1]
  lhsBatch := []
  rhsBatch := []
  wf := dot_S100000x256_S256x32_S100000x32_1_0_0_1_n_n_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf

class Facts : Prop extends Facts₀ where

variable [Facts]
-- ==== Proof.LibBlock.lean ====
/-
  Blocks read at an index: the vocabulary the three regions share.

  * `hz`: the zero offsets of a rank-2 rectangle, spelt as the constant function;
  * `matmul_zero_ix2`: a plain matrix product `[M, K] × [K, N]` accumulated into the zero splat, read at `(p, q)`, is
    the sum over the contracted coordinate `k : Fin K` of `lhs (p, k) * rhs (k, q)` (any `K`);
  * `lhsIdx_val_row`, `rhsIdx_val_col`: the non-contracted coordinates of the two operand indices.
  (A `[1, n]` row broadcast over `m` rows, read at `(p, c)`, is the library's `ValueIdx.broadcastTo_1b_ab_apply`.)
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.LibBlock

open Idealize.ShloMosaic Idealize.ShloMosaic.ValueIdx

/-- The zero offsets of a rank-2 rectangle are the constant function `0`. -/
theorem hz : (![0, 0] : Fin 2 → Nat) = fun _ => 0 := funext fun a => by fin_cases a <;> rfl

section Matmul
variable {M K N : Nat} (D : DotDims ⟨2, ![M, K]⟩ ⟨2, ![K, N]⟩ ⟨2, ![M, N]⟩)

/-- With no batch axis and the left operand's rows its one free axis, the left operand index has the result's row. -/
theorem lhsIdx_val_row (hlb : D.lhsBatch = []) (hln : D.lhsNonContracting = [0])
    (j : (⟨2, ![M, N]⟩ : Shape).Idx) (k : D.contr.Idx) : (D.lhsIdx j k 0).val = (j 0).val := by
  unfold DotDims.lhsIdx
  rw [dif_neg (by rw [hlb]; exact List.not_mem_nil), dif_pos (by rw [hln]; exact List.mem_singleton.mpr rfl)]
  simp only [Fin.val_cast]
  have key : ∀ (a b : Nat) (ha : a < 2) (hb : b < 2), a = b → (j ⟨a, ha⟩).val = (j ⟨b, hb⟩).val :=
    fun a b ha hb h => by subst h; rfl
  exact key _ _ _ _ (by simp [hlb, hln])

/-- With no batch axis, one free axis on the left and the right operand's columns its one free axis, the right operand
    index has the result's column. -/
theorem rhsIdx_val_col (hlb : D.lhsBatch = []) (hln : D.lhsNonContracting = [0]) (hrb : D.rhsBatch = [])
    (hrn : D.rhsNonContracting = [1])
    (j : (⟨2, ![M, N]⟩ : Shape).Idx) (k : D.contr.Idx) : (D.rhsIdx j k 1).val = (j 1).val := by
  unfold DotDims.rhsIdx
  rw [dif_neg (by rw [hrb]; exact List.not_mem_nil), dif_pos (by rw [hrn]; exact List.mem_singleton.mpr rfl)]
  simp only [Fin.val_cast]
  have key : ∀ (a b : Nat) (ha : a < 2) (hb : b < 2), a = b → (j ⟨a, ha⟩).val = (j ⟨b, hb⟩).val :=
    fun a b ha hb h => by subst h; rfl
  exact key _ _ _ _ (by simp [hlb, hln, hrn])

/-- A plain matrix product `[M, K] × [K, N]` into the zero accumulator, read at `(p, q)`:
    `∑ₖ lhs (p, k) * rhs (k, q)`, the sum over the contracted coordinate. -/
theorem matmul_zero_ix2 (hlc : D.lhsContracting = [1]) (hrc : D.rhsContracting = [0])
    (hlb : D.lhsBatch = []) (hln : D.lhsNonContracting = [0]) (hrb : D.rhsBatch = []) (hrn : D.rhsNonContracting = [1])
    {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul D prec lhs rhs (constant (F := Ideal) ⟨2, ![M, N]⟩ .f32 0x00000000#32) (ix2 p q)
      = ∑ k : Fin K, lhs (ix2 p k) * rhs (ix2 k q) := by
  have hr : D.contr.rank = 1 := by rw [D.rank_contr, hlc]; rfl
  have hs : D.contr.size ⟨0, by omega⟩ = K := by
    have h := D.size_contr 0 (by rw [hlc]; exact Nat.one_pos)
    refine h.trans ?_
    have e : D.lhsContracting[0]'(by rw [hlc]; exact Nat.one_pos) = 1 := by simp [hlc]
    rw [e]; rfl
  refine (Ideal.matmul_constant_zero_apply D prec lhs rhs (ix2 p q)).trans ?_
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact lhsIdx_val_row D hlb hln _ _
    | ⟨1, _⟩ => exact (D.lhsIdx_val_of_single hlc _ _).trans hk)
  have er : D.rhsIdx (ix2 p q) ((contrEquiv1 D K hr hs).symm k) = ix2 k q := funext fun a => Fin.ext (by
    match a with
    | ⟨0, _⟩ => exact (D.rhsIdx_val_of_single hrc _ _).trans hk
    | ⟨1, _⟩ => exact rhsIdx_val_col D hlb hln hrb hrn _ _)
  rw [el, er]

end Matmul

end Cert.LibBlock

end
-- ==== Proof.LibColumn.lean ====
/-
  A vector laid out as a column and spread over lanes, read at an index: the two layout steps of a reduction that
  keeps its axis (a row sum or row maximum put back beside the rows it came from).

  * `shapeCast_a_a1_apply`: an `[a]` vector cast to the column `[a, 1]` reads, at `(p, u)`, its entry `p`;
  * `broadcastTo_a1_ab_apply`: a column `[a, 1]` broadcast to `[a, b]` reads, at `(p, c)`, the column's entry `p`.
  Both for any extents `a`, `b` and any element type.
-/
import Idealize.ShloMosaic.Lib.Pipeline.Value
import Idealize.ShloMosaic.Lib.ValueIdx

namespace Cert.LibColumn

open Idealize.ShloMosaic Idealize.ShloMosaic.ValueIdx

variable {α : Type}

/-- An `[a]` vector laid out as a column `[a, 1]` reads, at `(p, u)`, its entry `p`. -/
theorem shapeCast_a_a1_apply {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` spread over `b` lanes reads, at `(p, c)`, the column's entry `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn
-- ==== Proof.Region0.lean ====
/-
  The first region: the features, each row scaled by its node's factor, times the weights.

  The region walks the 100000 rows in 50 blocks of 2000. At a block the body multiplies every entry of the
  feature block by its row's factor (a [2000,1] column spread over the 256 lanes), and multiplies the result by the
  whole [256,32] weight matrix into a zero accumulator; narrowing the two operands to a shorter float format does
  nothing on the extended reals. So entry (p, q) of a block's result is the sum over k of
  (x (p, k) * n (p, 0)) * w (k, q), and since block t holds rows 2000 t … 2000 t + 1999 of the feature array and of
  the factor column, and writes the same rows of the result, the result array is ONE function of the three arrays
  the region reads: `scaledProduct`. The 50 blocks tile the result array, so after the region the array is that
  function everywhere.
-/
import proofs.«104634_j38792144618153_2_alg».proof.Proof.Gen.KernelIdeal.Frame
import proofs.«104634_j38792144618153_2_alg».proof.Proof.LibBlock
import proofs.«104634_j38792144618153_2_alg».proof.Proof.LibColumn
import Idealize.ShloMosaic.Lib.Pipeline.Value
import Idealize.ShloMosaic.Lib.ValueIdx
import Idealize.ShloMosaic.Lib.ValueLayout
import Idealize.ShloMosaic.PureOps.Ideal.Laws

noncomputable section

open scoped BigOperators
open Idealize.ShloMosaic Idealize.ShloMosaic.TcCoe Idealize.SL.Sem Idealize.ShloMosaic.ValueIdx
open Idealize.ShloMosaic.Pipeline (Dat)

namespace Cert.KernelIdeal.Dense

open Cert.KernelIdeal Cert.KernelIdeal.Gen

/-- Row `i 0` of the features scaled by that row's factor, contracted with column `i 1` of the weights. -/
def scaledProduct (x : FVec Ideal S100000x256 .f32) (n : FVec Ideal S100000x1 .f32) (w : FVec Ideal S256x32 .f32) :
    FVec Ideal S100000x32 .f32 :=
  fun i => ∑ k : Fin 256, (x (ix2 (i 0) k) * n (ix2 (i 0) (0 : Fin 1))) * w (ix2 k (i 1))

/-- What the body computes from its three blocks, at entry (p, q) of the block. -/
theorem body_apply (x0 : Vec Ideal S2000x256 .f32) (x1 : Vec Ideal S2000x1 .f32) (x2 : Vec Ideal S256x32 .f32)
    (p : Fin 2000) (q : Fin 32) :
    k0_pay1 (F := Ideal) x0 x1 x2 (ix2 p q)
      = ∑ k : Fin 256, (x0 (ix2 p k) * x1 (ix2 p (0 : Fin 1))) * x2 (ix2 k q) := by
  unfold k0_pay1
  refine (Cert.LibBlock.matmul_zero_ix2 dot_S2000x256_S256x32_S2000x32_1_0_0_1_n_n rfl rfl rfl rfl rfl rfl none _ _ p q).trans ?_
  refine Finset.sum_congr rfl fun k _ => ?_
  show (x0 (ix2 p k) * broadcastTo S2000x256 (shapeCast S2000x1 x1 shapeCasts_S2000x1_S2000x1) broadcasts_S2000x1_S2000x256 (ix2 p k)) * x2 (ix2 k q) = _
  rw [Cert.LibColumn.broadcastTo_a1_ab_apply, shapeCast_self]

section Blocks
variable (V : (c : Dev nD) → (b : Ref sig .tc) → Buf (Elt Ideal) ((c : Thread nD τ).loc b))

/-- The printed index maps over the 50 points: the three row-blocked windows are at block row `t`, column 0; the
    weights' window stays at (0, 0). -/
theorem index_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Entry (p, k) of the feature block at point `t` is entry (2000 t + p, k) of the feature array. -/
theorem features_block (c : Dev nD) (t : Fin cfg0.N) (p : Fin 2000) (k : Fin 256) (r : Fin 100000)
    (hr : r.val = 2000 * t.val + p.val) :
    (iblk0 V c 0 t : Vec Ideal S2000x256 .f32) (ix2 p k) = (V c main_arg0 : FVec Ideal S100000x256 .f32) (ix2 r k) := by
  obtain ⟨e0, e1, -⟩ := index_facts t
  unfold iblk0
  rw [View.read_apply]
  show (V c main_arg0 : FVec Ideal S100000x256 .f32) _ = _
  congr 1
  funext a
  apply Fin.ext
  match a with
  | ⟨0, _⟩ => show win0_0.index t (0 : Fin 2) * 2000 + 1 * p.val = r.val; rw [e0, hr]; omega
  | ⟨1, _⟩ => show win0_0.index t (1 : Fin 2) * 256 + 1 * k.val = k.val; rw [e1]; omega

/-- Entry (p, 0) of the factor block at point `t` is entry (2000 t + p, 0) of the factor column. -/
theorem factors_block (c : Dev nD) (t : Fin cfg0.N) (p : Fin 2000) (r : Fin 100000)
    (hr : r.val = 2000 * t.val + p.val) :
    (iblk0 V c 1 t : Vec Ideal S2000x1 .f32) (ix2 p (0 : Fin 1)) = (V c main_v11 : FVec Ideal S100000x1 .f32) (ix2 r (0 : Fin 1)) := by
  obtain ⟨-, -, e0, e1, -⟩ := index_facts t
  unfold iblk0
  rw [View.read_apply]
  show (V c main_v11 : FVec Ideal S100000x1 .f32) _ = _
  congr 1
  funext a
  apply Fin.ext
  match a with
  | ⟨0, _⟩ => show win0_1.index t (0 : Fin 2) * 2000 + 1 * p.val = r.val; rw [e0, hr]; omega
  | ⟨1, _⟩ => show win0_1.index t (1 : Fin 2) * 1 + 1 * 0 = 0; rw [e1]

/-- The weights' block at every point is the whole weight matrix. -/
theorem weights_block (c : Dev nD) (t : Fin cfg0.N) (k : Fin 256) (q : Fin 32) :
    (iblk0 V c 2 t : Vec Ideal S256x32 .f32) (ix2 k q) = (V c main_arg1 : FVec Ideal S256x32 .f32) (ix2 k q) := by
  obtain ⟨-, -, -, -, e0, e1, -⟩ := index_facts t
  unfold iblk0
  rw [View.read_apply]
  show (V c main_arg1 : FVec Ideal S256x32 .f32) _ = _
  congr 1
  funext a
  apply Fin.ext
  match a with
  | ⟨0, _⟩ => show win0_2.index t (0 : Fin 2) * 256 + 1 * k.val = k.val; rw [e0]; omega
  | ⟨1, _⟩ => show win0_2.index t (1 : Fin 2) * 32 + 1 * q.val = q.val; rw [e1]; omega

/-- What point `t` writes back is block `t` of `scaledProduct` of the arrays the region finds. -/
theorem flushed_eq (c : Dev nD) (t : Fin cfg0.N) :
    (dat0 (F := Ideal) V c).flushed 3 t
      = ((cfg0.win 3).blk t).view.read (Elt Ideal) (scaledProduct (V c main_arg0) (V c main_v11) (V c main_arg1)) := by
  show (cfg0.win 3).cut (grid0.coords t) ((dat0 V c).after 3 t) = _
  rw [after0_3]
  unfold out0_3
  rw [View.canon_unit_zero Cert.LibBlock.hz]
  simp only [View.ld_unit_zero (S := S2000x256) Cert.LibBlock.hz, View.ld_unit_zero (S := S2000x1) Cert.LibBlock.hz,
    View.ld_unit_zero (S := S256x32) Cert.LibBlock.hz]
  obtain ⟨-, -, -, -, -, -, e0, e1⟩ := index_facts t
  have hN : cfg0.N = 50 := N_0
  have ht : t.val < 50 := hN ▸ t.isLt
  funext j
  obtain ⟨p, q, rfl⟩ : ∃ (p : Fin 2000) (q : Fin 32), j = ix2 p q := ⟨j 0, j 1, eq_ix2 j⟩
  have hp := p.isLt
  let r : Fin 100000 := ⟨2000 * t.val + p.val, by omega⟩
  have hemb : ((cfg0.win 3).blk t).view.emb (ix2 p q) = (ix2 r q : S100000x32.Idx) := by
    funext a
    apply Fin.ext
    match a with
    | ⟨0, _⟩ => show win0_3.index t (0 : Fin 2) * 2000 + 1 * p.val = 2000 * t.val + p.val; rw [e0]; omega
    | ⟨1, _⟩ => show win0_3.index t (1 : Fin 2) * 32 + 1 * q.val = q.val; rw [e1]; omega
  show k0_pay1 (F := Ideal) (iblk0 V c 0 t) (iblk0 V c 1 t) (iblk0 V c 2 t) (ix2 p q)
    = scaledProduct (V c main_arg0) (V c main_v11) (V c main_arg1) (((cfg0.win 3).blk t).view.emb (ix2 p q))
  rw [hemb]
  refine (body_apply (iblk0 V c 0 t) (iblk0 V c 1 t) (iblk0 V c 2 t) p q).trans ?_
  unfold scaledProduct
  refine Finset.sum_congr rfl fun k _ => ?_
  rw [features_block V c t p k r rfl, factors_block V c t p r rfl, weights_block V c t k q]

/-- An index of the result array is in point `t`'s block iff each coordinate is in the block's range. -/
theorem mem_block (t : Fin cfg0.N) (i : S100000x32.Idx) :
    i ∈ ((cfg0.win 3).blk t).view.set
      ↔ ∀ a : Fin 2, win0_3.index t a * S2000x32.size a ≤ (i a).val ∧ (i a).val < win0_3.index t a * S2000x32.size a + S2000x32.size a := by
  show i ∈ ((View.whole main_v12).slice (win0_3.rect t)).set ↔ _
  rw [View.set_slice_whole, Rect.mem_set_unit]
  exact Iff.rfl

/-- Row `r` of the result array lies in the block of point `r / 2000`. -/
theorem covered (i : S100000x32.Idx) :
    ∃ t : Fin cfg0.N, (cfg0.win 3).flush t = true ∧ i ∈ ((cfg0.win 3).blk t).view.set := by
  have hN : cfg0.N = 50 := N_0
  have h0 : (i 0).val < 100000 := (i 0).isLt
  have h1 : (i 1).val < 32 := (i 1).isLt
  let t : Fin cfg0.N := ⟨(i 0).val / 2000, by rw [hN]; omega⟩
  obtain ⟨-, -, -, -, -, -, e0, e1⟩ := index_facts t
  have htv : t.val = (i 0).val / 2000 := rfl
  refine ⟨t, flush0_3 t, ?_⟩
  rw [mem_block]
  intro a
  match a with
  | ⟨0, _⟩ => show win0_3.index t (0 : Fin 2) * 2000 ≤ (i 0).val ∧ (i 0).val < win0_3.index t (0 : Fin 2) * 2000 + 2000; rw [e0, htv]; omega
  | ⟨1, _⟩ => show win0_3.index t (1 : Fin 2) * 32 ≤ (i 1).val ∧ (i 1).val < win0_3.index t (1 : Fin 2) * 32 + 32; rw [e1]; omega

/-- After the region its result array is `scaledProduct` of the arrays it read. -/
theorem result_array (c : Dev nD) :
    (dat0 (F := Ideal) V c).arrAt 3 cfg0.N = scaledProduct (V c main_arg0) (V c main_v11) (V c main_arg1) :=
  (dat0 (F := Ideal) V c).arrAt_eq_of_cover 3 _ (fun t _ => flushed_eq V c t) covered

end Blocks

end Cert.KernelIdeal.Dense

end
-- ==== Proof.Region1.lean ====
/-
  The second region: the aggregated rows, each scaled by its node's factor, plus the bias.

  The region walks the 100000 rows in 50 blocks of 2000. At a block the body multiplies every entry of the
  aggregate block by its row's factor (a [2000,1] column spread over the 32 lanes) and adds the bias (a [1,32] row
  spread over the 2000 rows). Block t holds rows 2000 t … 2000 t + 1999 of the aggregate and of the factor column,
  the bias row is the same at every point, and the block written is the same rows of the result: the result array is
  ONE function of the three arrays the region reads, `scaledPlusBias`, and the 50 blocks tile it.
-/
import proofs.«104634_j38792144618153_2_alg».proof.Proof.Gen.KernelIdeal.Frame
import proofs.«104634_j38792144618153_2_alg».proof.Proof.LibBlock
import proofs.«104634_j38792144618153_2_alg».proof.Proof.LibColumn
import Idealize.ShloMosaic.Lib.Pipeline.Value
import Idealize.ShloMosaic.Lib.ValueIdx
import Idealize.ShloMosaic.Lib.ValueLayout
import Idealize.ShloMosaic.PureOps.Ideal.Laws

noncomputable section

open scoped BigOperators
open Idealize.ShloMosaic Idealize.ShloMosaic.TcCoe Idealize.SL.Sem Idealize.ShloMosaic.ValueIdx
open Idealize.ShloMosaic.Pipeline (Dat)

namespace Cert.KernelIdeal.Combine

open Cert.KernelIdeal Cert.KernelIdeal.Gen

/-- Entry `i` of the aggregate times row `i 0`'s factor, plus the bias of column `i 1`. -/
def scaledPlusBias (a : FVec Ideal S100000x32 .f32) (n : FVec Ideal S100000x1 .f32) (b : FVec Ideal S1x32 .f32) :
    FVec Ideal S100000x32 .f32 :=
  fun i => a i * n (ix2 (i 0) (0 : Fin 1)) + b (ix2 (0 : Fin 1) (i 1))

/-- What the body computes from its three blocks, at entry (p, q) of the block. -/
theorem body_apply (x0 : Vec Ideal S2000x32 .f32) (x1 : Vec Ideal S2000x1 .f32) (x2 : Vec Ideal S1x32 .f32)
    (p : Fin 2000) (q : Fin 32) :
    k1_pay1 (F := Ideal) x0 x1 x2 (ix2 p q)
      = x0 (ix2 p q) * x1 (ix2 p (0 : Fin 1)) + x2 (ix2 (0 : Fin 1) q) := by
  unfold k1_pay1
  show shapeCast S2000x32 x0 shapeCasts_S2000x32_S2000x32 (ix2 p q)
      * broadcastTo S2000x32 (shapeCast S2000x1 x1 shapeCasts_S2000x1_S2000x1) broadcasts_S2000x1_S2000x32 (ix2 p q)
      + broadcastTo S2000x32 (shapeCast S1x32 x2 shapeCasts_S1x32_S1x32) broadcasts_S1x32_S2000x32 (ix2 p q) = _
  rw [Cert.LibColumn.broadcastTo_a1_ab_apply, broadcastTo_1b_ab_apply, shapeCast_self, shapeCast_self, shapeCast_self]

section Blocks
variable (V : (c : Dev nD) → (b : Ref sig .tc) → Buf (Elt Ideal) ((c : Thread nD τ).loc b))

/-- The printed index maps over the 50 points: the three row-blocked windows are at block row `t`, column 0; the
    bias row's window stays at (0, 0). -/
theorem index_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Entry (p, q) of the aggregate block at point `t` is entry (2000 t + p, q) of the aggregate. -/
theorem aggregate_block (c : Dev nD) (t : Fin cfg1.N) (p : Fin 2000) (q : Fin 32) (r : Fin 100000)
    (hr : r.val = 2000 * t.val + p.val) :
    (iblk1 V c 0 t : Vec Ideal S2000x32 .f32) (ix2 p q) = (V c main_v22 : FVec Ideal S100000x32 .f32) (ix2 r q) := by
  obtain ⟨e0, e1, -⟩ := index_facts t
  unfold iblk1
  rw [View.read_apply]
  show (V c main_v22 : FVec Ideal S100000x32 .f32) _ = _
  congr 1
  funext a
  apply Fin.ext
  match a with
  | ⟨0, _⟩ => show win1_0.index t (0 : Fin 2) * 2000 + 1 * p.val = r.val; rw [e0, hr]; omega
  | ⟨1, _⟩ => show win1_0.index t (1 : Fin 2) * 32 + 1 * q.val = q.val; rw [e1]; omega

/-- Entry (p, 0) of the factor block at point `t` is entry (2000 t + p, 0) of the factor column. -/
theorem factors_block (c : Dev nD) (t : Fin cfg1.N) (p : Fin 2000) (r : Fin 100000)
    (hr : r.val = 2000 * t.val + p.val) :
    (iblk1 V c 1 t : Vec Ideal S2000x1 .f32) (ix2 p (0 : Fin 1)) = (V c main_v23 : FVec Ideal S100000x1 .f32) (ix2 r (0 : Fin 1)) := by
  obtain ⟨-, -, e0, e1, -⟩ := index_facts t
  unfold iblk1
  rw [View.read_apply]
  show (V c main_v23 : FVec Ideal S100000x1 .f32) _ = _
  congr 1
  funext a
  apply Fin.ext
  match a with
  | ⟨0, _⟩ => show win1_1.index t (0 : Fin 2) * 2000 + 1 * p.val = r.val; rw [e0, hr]; omega
  | ⟨1, _⟩ => show win1_1.index t (1 : Fin 2) * 1 + 1 * 0 = 0; rw [e1]

/-- The bias block at every point is the whole bias row. -/
theorem bias_block (c : Dev nD) (t : Fin cfg1.N) (q : Fin 32) :
    (iblk1 V c 2 t : Vec Ideal S1x32 .f32) (ix2 (0 : Fin 1) q) = (V c main_v24 : FVec Ideal S1x32 .f32) (ix2 (0 : Fin 1) q) := by
  obtain ⟨-, -, -, -, e0, e1, -⟩ := index_facts t
  unfold iblk1
  rw [View.read_apply]
  show (V c main_v24 : FVec Ideal S1x32 .f32) _ = _
  congr 1
  funext a
  apply Fin.ext
  match a with
  | ⟨0, _⟩ => show win1_2.index t (0 : Fin 2) * 1 + 1 * 0 = 0; rw [e0]
  | ⟨1, _⟩ => show win1_2.index t (1 : Fin 2) * 32 + 1 * q.val = q.val; rw [e1]; omega

/-- What point `t` writes back is block `t` of `scaledPlusBias` of the arrays the region finds. -/
theorem flushed_eq (c : Dev nD) (t : Fin cfg1.N) :
    (dat1 (F := Ideal) V c).flushed 3 t
      = ((cfg1.win 3).blk t).view.read (Elt Ideal) (scaledPlusBias (V c main_v22) (V c main_v23) (V c main_v24)) := by
  show (cfg1.win 3).cut (grid1.coords t) ((dat1 V c).after 3 t) = _
  rw [after1_3]
  unfold out1_3
  rw [View.canon_unit_zero Cert.LibBlock.hz]
  simp only [View.ld_unit_zero (S := S2000x32) Cert.LibBlock.hz, View.ld_unit_zero (S := S2000x1) Cert.LibBlock.hz,
    View.ld_unit_zero (S := S1x32) Cert.LibBlock.hz]
  obtain ⟨-, -, -, -, -, -, e0, e1⟩ := index_facts t
  have hN : cfg1.N = 50 := N_1
  have ht : t.val < 50 := hN ▸ t.isLt
  funext j
  obtain ⟨p, q, rfl⟩ : ∃ (p : Fin 2000) (q : Fin 32), j = ix2 p q := ⟨j 0, j 1, eq_ix2 j⟩
  have hp := p.isLt
  let r : Fin 100000 := ⟨2000 * t.val + p.val, by omega⟩
  have hemb : ((cfg1.win 3).blk t).view.emb (ix2 p q) = (ix2 r q : S100000x32.Idx) := by
    funext a
    apply Fin.ext
    match a with
    | ⟨0, _⟩ => show win1_3.index t (0 : Fin 2) * 2000 + 1 * p.val = 2000 * t.val + p.val; rw [e0]; omega
    | ⟨1, _⟩ => show win1_3.index t (1 : Fin 2) * 32 + 1 * q.val = q.val; rw [e1]; omega
  show k1_pay1 (F := Ideal) (iblk1 V c 0 t) (iblk1 V c 1 t) (iblk1 V c 2 t) (ix2 p q)
    = scaledPlusBias (V c main_v22) (V c main_v23) (V c main_v24) (((cfg1.win 3).blk t).view.emb (ix2 p q))
  rw [hemb]
  refine (body_apply (iblk1 V c 0 t) (iblk1 V c 1 t) (iblk1 V c 2 t) p q).trans ?_
  unfold scaledPlusBias
  rw [aggregate_block V c t p q r rfl, factors_block V c t p r rfl, bias_block V c t q]

/-- An index of the result array is in point `t`'s block iff each coordinate is in the block's range. -/
theorem mem_block (t : Fin cfg1.N) (i : S100000x32.Idx) :
    i ∈ ((cfg1.win 3).blk t).view.set
      ↔ ∀ a : Fin 2, win1_3.index t a * S2000x32.size a ≤ (i a).val ∧ (i a).val < win1_3.index t a * S2000x32.size a + S2000x32.size a := by
  show i ∈ ((View.whole main_v25).slice (win1_3.rect t)).set ↔ _
  rw [View.set_slice_whole, Rect.mem_set_unit]
  exact Iff.rfl

/-- Row `r` of the result array lies in the block of point `r / 2000`. -/
theorem covered (i : S100000x32.Idx) :
    ∃ t : Fin cfg1.N, (cfg1.win 3).flush t = true ∧ i ∈ ((cfg1.win 3).blk t).view.set := by
  have hN : cfg1.N = 50 := N_1
  have h0 : (i 0).val < 100000 := (i 0).isLt
  have h1 : (i 1).val < 32 := (i 1).isLt
  let t : Fin cfg1.N := ⟨(i 0).val / 2000, by rw [hN]; omega⟩
  obtain ⟨-, -, -, -, -, -, e0, e1⟩ := index_facts t
  have htv : t.val = (i 0).val / 2000 := rfl
  refine ⟨t, flush1_3 t, ?_⟩
  rw [mem_block]
  intro a
  match a with
  | ⟨0, _⟩ => show win1_3.index t (0 : Fin 2) * 2000 ≤ (i 0).val ∧ (i 0).val < win1_3.index t (0 : Fin 2) * 2000 + 2000; rw [e0, htv]; omega
  | ⟨1, _⟩ => show win1_3.index t (1 : Fin 2) * 32 ≤ (i 1).val ∧ (i 1).val < win1_3.index t (1 : Fin 2) * 32 + 32; rw [e1]; omega

/-- After the region its result array is `scaledPlusBias` of the arrays it read. -/
theorem result_array (c : Dev nD) :
    (dat1 (F := Ideal) V c).arrAt 3 cfg1.N = scaledPlusBias (V c main_v22) (V c main_v23) (V c main_v24) :=
  (dat1 (F := Ideal) V c).arrAt_eq_of_cover 3 _ (fun t _ => flushed_eq V c t) covered

end Blocks

end Cert.KernelIdeal.Combine

end
-- ==== Proof.KernelRun.lean ====
/-
  The whole program's run, with its result buffer named.

  The program is eight segments: five stretches of host operations (the two degree counts and the node factors), the
  first region (the scaled product), one stretch (the gather along the edges' sources and the sum along their
  destinations), and the second region (the scaling and the bias). The buffer contents at each boundary are a fold from
  the launch memory; at the end every buffer that outlives a region holds the last boundary's contents. Read at the
  result buffer, that is what the second region's write-backs leave in its output array; read at an argument, it is
  the launch contents.
-/
import proofs.«104634_j38792144618153_2_alg».proof.Proof.Gen.KernelIdeal.Frame
import Idealize.ShloMosaic.Lib.Pipeline.Value

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates with the result buffer at the last boundary's contents and the five
    arguments as launched. -/
theorem run_named : θ_run defs (onTc (τ := τ) (main (F := F))) ⟨m, fun _ => 0, ρ⟩ (fun r => ∀ c : Dev nD,
      r.2.mem ((c.tc : Thread nD τ).loc main_v25) = W8 m ρ c (Proc.devRef .tc main_v25)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v25 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c)⟩)

/-- The result buffer is the second region's output array: at the last boundary it holds what the region's
    write-backs leave. -/
theorem result_at_exit (c : Dev nD) :
    W8 m ρ c (Proc.devRef .tc main_v25) = (dat1 (V7 m ρ) c).arrAt 3 cfg1.N :=
  W8_arr m ρ c 3

/-- The first region's output array, at the boundary after it, holds what that region's write-backs leave. -/
theorem product_at_exit (c : Dev nD) :
    W6 m ρ c (Proc.devRef .tc main_v12) = (dat0 (V5 m ρ) c).arrAt 3 cfg0.N :=
  W6_arr m ρ c 3

end Cert.KernelIdeal.Whole

end
-- ==== Proof.Boundaries.lean ====
/-
  What the two regions find in their arrays, as functions of the launch memory.

  Before the first region the host counts, for every node, the edges leaving it and the edges entering it (a sum of
  ones along the edges' source column and along their destination column), clips each count below at one and takes
  the inverse square root: the node's two factors (`nodeFactor` of the column). The first region is entered with the
  features and the weights as launched and the source factors laid out as a column. Between the regions the host
  gathers the first region's result rows along the edges' sources (a negative index moved up by the number of nodes)
  and sums them along the edges' destinations (`aggregate`); the second region is entered with that array, the
  destination factors laid out as a column and the bias laid out as a row.
-/
import proofs.«104634_j38792144618153_2_alg».proof.Proof.KernelRun
import Idealize.ShloMosaic.Lib.StableHlo.Run

set_option maxRecDepth 16384

noncomputable section

namespace Cert.KernelIdeal.Whole

open Cert.KernelIdeal Cert.KernelIdeal.Gen
open Idealize.ShloMosaic Idealize.ShloMosaic.TcCoe Idealize.SL.Sem Idealize.ShloMosaic.StableHlo

variable {F : FTy → Type} [FloatOps F]

/-- A node's factor from a column of node indices: the number of entries naming the node, at least one, to the power
    minus one half. -/
def nodeFactor (idx : IVec S1600000 32) : FVec F S100000 .f32 :=
  Host.rsqrt (maximumf (broadcastInDim S100000 ![] bcast_S_S100000 (id (constant S_ .f32 0x3F800000#32)))
    (Host.scatterAdd scatter_S100000_S1600000x1_S1600000_n_0_0_1
      (broadcastInDim S100000 ![] bcast_S_S100000 (constant S_ .f32 0x00000000#32))
      (broadcastInDim S1600000x1 ![0] bcast_S1600000_S1600000x1_0 idx)
      (broadcastInDim S1600000 ![] bcast_S_S1600000 (constant S_ .f32 0x3F800000#32))))

/-- The rows of `h` gathered along the source column and summed along the destination column. -/
def aggregate (h : FVec F S100000x32 .f32) (src dst : IVec S1600000 32) : FVec F S100000x32 .f32 :=
  Host.scatterAdd scatter_S100000x32_S1600000x1_S1600000x32_1_0_0_1
    (broadcastInDim S100000x32 ![] bcast_S_S100000x32 (constant S_ .f32 0x00000000#32))
    (broadcastInDim S1600000x1 ![0] bcast_S1600000_S1600000x1_0 dst)
    (Host.gather gather_S100000x32_S1600000x1_S1600000x32_1_0_n_n_0_1_132 h
      (broadcastInDim S1600000x1 ![0] bcast_S1600000_S1600000x1_0
        (select (cmpi .slt src (broadcastInDim S1600000 ![] bcast_S_S1600000 (constantI S_ 32 0#32)))
          (addi src (broadcastInDim S1600000 ![] bcast_S_S1600000 (constantI S_ 32 100000#32))) src)))

variable (m : (ℓ : Loc nD τ sig) → Buf (Elt F) ℓ) (ρ : Dev nD → PrngReg)

/-! ## At the first region's entry -/

theorem entry0_features (c : Dev nD) : V5 m ρ c main_arg0 = m ((c : Thread nD τ).loc main_arg0) := by
  show W5 m ρ c (Proc.devRef .tc main_arg0) = _
  dsimp only [W5, W4, W3, W2, W1, hostOps0, hostOps0_1, hostOps0_2, hostOps0_3, hostOps0_4]
  after_results_simp <;> rfl

theorem entry0_weights (c : Dev nD) : V5 m ρ c main_arg1 = m ((c : Thread nD τ).loc main_arg1) := by
  show W5 m ρ c (Proc.devRef .tc main_arg1) = _
  dsimp only [W5, W4, W3, W2, W1, hostOps0, hostOps0_1, hostOps0_2, hostOps0_3, hostOps0_4]
  after_results_simp <;> rfl

theorem entry0_bias (c : Dev nD) : W5 m ρ c (Proc.devRef .tc main_arg2) = m ((c : Thread nD τ).loc main_arg2) := by
  dsimp only [W5, W4, W3, W2, W1, hostOps0, hostOps0_1, hostOps0_2, hostOps0_3, hostOps0_4]
  after_results_simp <;> rfl

theorem entry0_sources (c : Dev nD) : W5 m ρ c (Proc.devRef .tc main_arg3) = m ((c : Thread nD τ).loc main_arg3) := by
  dsimp only [W5, W4, W3, W2, W1, hostOps0, hostOps0_1, hostOps0_2, hostOps0_3, hostOps0_4]
  after_results_simp <;> rfl

theorem entry0_destinations (c : Dev nD) : W5 m ρ c (Proc.devRef .tc main_arg4) = m ((c : Thread nD τ).loc main_arg4) := by
  dsimp only [W5, W4, W3, W2, W1, hostOps0, hostOps0_1, hostOps0_2, hostOps0_3, hostOps0_4]
  after_results_simp <;> rfl

/-- The source factors, as a column. -/
theorem entry0_factors (c : Dev nD) :
    V5 m ρ c main_v11 = shapeCast S100000x1 (nodeFactor (F := F) (m ((c : Thread nD τ).loc main_arg3))) shapeCasts_S100000_S100000x1 := by
  show W5 m ρ c (Proc.devRef .tc main_v11) = _
  dsimp only [W5, W4, W3, W2, W1, hostOps0, hostOps0_1, hostOps0_2, hostOps0_3, hostOps0_4]
  after_results_simp <;> rfl

/-- The destination factors, computed before the first region and untouched by it. -/
theorem entry0_dst_factors (c : Dev nD) :
    W5 m ρ c (Proc.devRef .tc main_v10) = nodeFactor (F := F) (m ((c : Thread nD τ).loc main_arg4)) := by
  dsimp only [W5, W4, W3, W2, W1, hostOps0, hostOps0_1, hostOps0_2, hostOps0_3, hostOps0_4]
  after_results_simp <;> rfl

/-! ## At the second region's entry -/

/-- The aggregate of the first region's result. -/
theorem entry1_aggregate (c : Dev nD) :
    V7 m ρ c main_v22 = aggregate (F := F) ((dat0 (V5 m ρ) c).arrAt 3 cfg0.N)
      (m ((c : Thread nD τ).loc main_arg3)) (m ((c : Thread nD τ).loc main_arg4)) := by
  have e3 : W6 m ρ c (Proc.devRef .tc main_arg3) = m ((c : Thread nD τ).loc main_arg3) :=
    (W6_of_ne m ρ c main_arg3 (by decide)).trans (entry0_sources m ρ c)
  have e4 : W6 m ρ c (Proc.devRef .tc main_arg4) = m ((c : Thread nD τ).loc main_arg4) :=
    (W6_of_ne m ρ c main_arg4 (by decide)).trans (entry0_destinations m ρ c)
  have eh := product_at_exit m ρ c
  show W7 m ρ c (Proc.devRef .tc main_v22) = _
  dsimp only [W7, hostOps1]
  after_results_simp
  rw [e3, e4, eh]
  rfl

/-- The destination factors, as a column. -/
theorem entry1_factors (c : Dev nD) :
    V7 m ρ c main_v23 = shapeCast S100000x1 (nodeFactor (F := F) (m ((c : Thread nD τ).loc main_arg4))) shapeCasts_S100000_S100000x1 := by
  have e : W6 m ρ c (Proc.devRef .tc main_v10) = nodeFactor (F := F) (m ((c : Thread nD τ).loc main_arg4)) :=
    (W6_of_ne m ρ c main_v10 (by decide)).trans (entry0_dst_factors m ρ c)
  show W7 m ρ c (Proc.devRef .tc main_v23) = _
  dsimp only [W7, hostOps1]
  after_results_simp
  rw [e]
  rfl

/-- The bias, as a row. -/
theorem entry1_bias (c : Dev nD) :
    V7 m ρ c main_v24 = shapeCast S1x32 (m ((c : Thread nD τ).loc main_arg2)) shapeCasts_S32_S1x32 := by
  have e : W6 m ρ c (Proc.devRef .tc main_arg2) = m ((c : Thread nD τ).loc main_arg2) :=
    (W6_of_ne m ρ c main_arg2 (by decide)).trans (entry0_bias m ρ c)
  show W7 m ρ c (Proc.devRef .tc main_v24) = _
  dsimp only [W7, hostOps1]
  after_results_simp
  rw [e]
  rfl

end Cert.KernelIdeal.Whole

end
-- ==== Proof.Bridge.lean ====
/-
  The two programs compute one function.

  Both count the edges at each node, clip, and take inverse square roots in the same words: the node factors agree
  as written. The reference scales the features by the source factors spread over the 256 lanes and contracts with
  the weights in one product over the whole array; entry (p, q) of that product is the sum over k of
  (x (p, k) * factor p) * w (k, q), which is the first region's function with the factors laid out as a column.
  The gather along the sources and the sum along the destinations are the same operations of that array in both
  programs. Last, the reference scales the aggregate by the destination factors spread over the 32 lanes and adds the
  bias spread over the rows: entry (p, q) is aggregate (p, q) * factor p + bias q, the second region's function with
  the factors laid out as a column and the bias as a row. Only the layout of the factors and the bias differs, and no
  law of arithmetic beyond that is used: nothing here depends on the inputs being finite.
-/
import proofs.«104634_j38792144618153_2_alg».proof.Proof.Region0
import proofs.«104634_j38792144618153_2_alg».proof.Proof.Region1
import proofs.«104634_j38792144618153_2_alg».proof.Proof.Boundaries
import proofs.«104634_j38792144618153_2_alg».proof.Proof.Gen.ReferenceIdeal.Read
import Idealize.ShloMosaic.Lib.ValueLayout

set_option maxRecDepth 16384

noncomputable section

open scoped BigOperators

namespace Cert.Bridge

open Idealize.ShloMosaic Idealize.ShloMosaic.ValueIdx
open Cert.KernelIdeal.Whole Cert.KernelIdeal.Dense Cert.KernelIdeal.Combine
open Cert.ReferenceIdeal.Read

/-- The source factors are the reference's. -/
theorem src_factor_eq (x3 : IVec Cert.KernelIdeal.S1600000 32) :
    nodeFactor (F := Ideal) x3 = val_main_v8 (F := Ideal) x3 := rfl

/-- The destination factors are the reference's. -/
theorem dst_factor_eq (x4 : IVec Cert.KernelIdeal.S1600000 32) :
    nodeFactor (F := Ideal) x4 = val_main_v10 (F := Ideal) x4 := rfl

/-- The first region's function, with the source factors as a column, is the reference's product. -/
theorem product_eq (x0 : FVec Ideal Cert.KernelIdeal.S100000x256 .f32) (x1 : FVec Ideal Cert.KernelIdeal.S256x32 .f32)
    (x3 : IVec Cert.KernelIdeal.S1600000 32) :
    scaledProduct x0 (shapeCast Cert.KernelIdeal.S100000x1 (nodeFactor (F := Ideal) x3) Cert.KernelIdeal.Gen.shapeCasts_S100000_S100000x1) x1
      = val_main_v14 (F := Ideal) x0 x1 x3 := by
  funext i
  obtain ⟨p, q, rfl⟩ : ∃ (p : Fin 100000) (q : Fin 32), i = ix2 p q := ⟨i 0, i 1, eq_ix2 i⟩
  rw [val_main_v14_apply]
  unfold scaledProduct
  refine Finset.sum_congr rfl fun k _ => ?_
  have el : lidx_main_v14 (ix2 p q) k = ix2 p k := funext fun a => Fin.ext (by
    match a with
    | ⟨0, _⟩ => rfl
    | ⟨1, _⟩ => rfl)
  have er : ridx_main_v14 (ix2 p q) k = ix2 k q := funext fun a => Fin.ext (by
    match a with
    | ⟨0, _⟩ => rfl
    | ⟨1, _⟩ => rfl)
  have ei : idx_main_v11 (idx_main_v12 (ix2 p k)) = ix1 p := funext fun a => Fin.ext (by
    match a with
    | ⟨0, _⟩ => rfl)
  rw [el, er, val_main_v13_apply, val_main_v12_apply, val_main_v11_apply, ei, ← src_factor_eq]
  show (x0 (ix2 p k) * shapeCast Cert.KernelIdeal.S100000x1 (nodeFactor (F := Ideal) x3) Cert.KernelIdeal.Gen.shapeCasts_S100000_S100000x1 (ix2 p (0 : Fin 1))) * x1 (ix2 k q) = _
  rw [Cert.LibColumn.shapeCast_a_a1_apply]
  rfl

/-- The gather along the sources and the sum along the destinations are the reference's, of the same array. -/
theorem aggregate_eq (x0 : FVec Ideal Cert.KernelIdeal.S100000x256 .f32) (x1 : FVec Ideal Cert.KernelIdeal.S256x32 .f32)
    (x3 x4 : IVec Cert.KernelIdeal.S1600000 32) :
    aggregate (F := Ideal) (val_main_v14 (F := Ideal) x0 x1 x3) x3 x4 = val_main_v24 (F := Ideal) x0 x1 x3 x4 := rfl

/-- The kernel's result, as a function of the five arguments, is the reference's. -/
theorem result_eq (x0 : FVec Ideal Cert.KernelIdeal.S100000x256 .f32) (x1 : FVec Ideal Cert.KernelIdeal.S256x32 .f32)
    (x2 : FVec Ideal Cert.KernelIdeal.S32 .f32) (x3 x4 : IVec Cert.KernelIdeal.S1600000 32) :
    scaledPlusBias
        (aggregate (F := Ideal)
          (scaledProduct x0 (shapeCast Cert.KernelIdeal.S100000x1 (nodeFactor (F := Ideal) x3) Cert.KernelIdeal.Gen.shapeCasts_S100000_S100000x1) x1)
          x3 x4)
        (shapeCast Cert.KernelIdeal.S100000x1 (nodeFactor (F := Ideal) x4) Cert.KernelIdeal.Gen.shapeCasts_S100000_S100000x1)
        (shapeCast Cert.KernelIdeal.S1x32 x2 Cert.KernelIdeal.Gen.shapeCasts_S32_S1x32)
      = val_main_v30 (F := Ideal) x0 x1 x2 x3 x4 := by
  rw [product_eq, aggregate_eq, dst_factor_eq]
  funext i
  obtain ⟨p, q, rfl⟩ : ∃ (p : Fin 100000) (q : Fin 32), i = ix2 p q := ⟨i 0, i 1, eq_ix2 i⟩
  have e1 : idx_main_v25 (idx_main_v26 (ix2 p q)) = ix1 p := funext fun a => Fin.ext (by
    match a with
    | ⟨0, _⟩ => rfl)
  have e2 : idx_main_v28 (idx_main_v29 (ix2 p q)) = ix1 q := funext fun a => Fin.ext (by
    match a with
    | ⟨0, _⟩ => rfl)
  rw [val_main_v30_apply, val_main_v27_apply, val_main_v29_apply, val_main_v28_apply, val_main_v26_apply,
    val_main_v25_apply, e1, e2]
  unfold scaledPlusBias
  show val_main_v24 (F := Ideal) x0 x1 x3 x4 (ix2 p q)
        * shapeCast Cert.KernelIdeal.S100000x1 (val_main_v10 (F := Ideal) x4) Cert.KernelIdeal.Gen.shapeCasts_S100000_S100000x1 (ix2 p (0 : Fin 1))
      + shapeCast Cert.KernelIdeal.S1x32 x2 Cert.KernelIdeal.Gen.shapeCasts_S32_S1x32 (ix2 (0 : Fin 1) q) = _
  rw [Cert.LibColumn.shapeCast_a_a1_apply, shapeCast_a_1a_apply]
  rfl

end Cert.Bridge

end
-- ==== Proof.KernelValue.lean ====
/-
  The kernel's result as a function of its arguments.

  At the end of the run the result buffer holds what the second region's write-backs leave: the aggregate it was
  entered with, scaled row by row by the destination factors, plus the bias. The aggregate is the gather and sum of
  what the first region's write-backs left: the features scaled row by row by the source factors, times the weights.
  Put together, and compared with the reference's operations one by one, that is the reference's own result term
  of the same five arrays.
-/
import proofs.«104634_j38792144618153_2_alg».proof.Proof.Bridge

set_option maxRecDepth 16384

noncomputable section

namespace Cert.KernelIdeal.Whole

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg)

/-- The result buffer at the end of the run is the reference's result term of the launch contents of the five
    arguments. -/
theorem result_value (c : Dev nD) :
    W8 m ρ c (Proc.devRef .tc main_v25)
      = Cert.ReferenceIdeal.Read.val_main_v30 (F := Ideal)
          (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) := by
  rw [result_at_exit, Cert.KernelIdeal.Combine.result_array (V7 m ρ) c, entry1_aggregate, entry1_factors, entry1_bias,
    Cert.KernelIdeal.Dense.result_array (V5 m ρ) c, entry0_features, entry0_factors, entry0_weights]
  exact Cert.Bridge.result_eq _ _ _ _ _

/-- Every weakly fair execution of the kernel's program terminates with the result buffer at that term and the
    arguments as launched. -/
theorem run_value : θ_run defs (onTc (τ := τ) (main (F := Ideal))) ⟨m, fun _ => 0, ρ⟩ (fun r => ∀ c : Dev nD,
      r.2.mem ((c.tc : Thread nD τ).loc main_v25)
        = Cert.ReferenceIdeal.Read.val_main_v30 (F := Ideal)
            (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨(h c).1.trans (result_value m ρ c), (h c).2⟩) (run_named (F := Ideal) m ρ)

end Cert.KernelIdeal.Whole

end
-- ==== Proof.lean ====
/-
  A graph convolution with both-sided degree normalization: out = D_dst^(-1/2) · A · (D_src^(-1/2) · X · W) + b,
  over 100000 nodes, 1600000 edges, 256 input and 32 output features.

  The kernel's program and the reference count the edges at each node, clip the counts at one and take inverse
  square roots with the same host operations; they gather along the edges' sources and sum along their destinations
  with the same host operations. They differ in two places. The product (X scaled by the source factors) · W is one
  whole-array contraction in the reference and, in the kernel, 50 row blocks of 2000, each block's rows scaled and
  multiplied by the whole W into a zero accumulator: on the extended reals both give, at (p, q), the sum over k of
  (x (p, k) * factor p) * w (k, q) — the contraction is never split, so no sum is reordered. The last step, the
  aggregate scaled by the destination factors plus the bias, is pointwise in both, over 50 row blocks in the kernel.
  The factors reach the kernel's regions as a [100000, 1] column and the bias as a [1, 32] row where the reference
  spreads them over the lanes: the same entries. So the two results are equal entry by entry for every input; the
  precondition is never opened.

  The frames of the two kernel programs are the generated ones; the reference's frame is its generated run with the
  result dropped. The idealization rewrote no operation, so there is nothing to preserve.
-/
import proofs.«104634_j38792144618153_2_alg».proof.Defs
import proofs.«104634_j38792144618153_2_alg».proof.Proof.Gen.Kernel
import proofs.«104634_j38792144618153_2_alg».proof.Proof.Gen.Kernel.Skeleton
import proofs.«104634_j38792144618153_2_alg».proof.Proof.Gen.Kernel.Launch
import proofs.«104634_j38792144618153_2_alg».proof.Proof.Gen.Kernel.Points
import proofs.«104634_j38792144618153_2_alg».proof.Proof.Gen.Kernel.Frame
import proofs.«104634_j38792144618153_2_alg».proof.Proof.Gen.KernelIdeal
import proofs.«104634_j38792144618153_2_alg».proof.Proof.Gen.KernelIdeal.Skeleton
import proofs.«104634_j38792144618153_2_alg».proof.Proof.Gen.KernelIdeal.Launch
import proofs.«104634_j38792144618153_2_alg».proof.Proof.Gen.KernelIdeal.Points
import proofs.«104634_j38792144618153_2_alg».proof.Proof.Gen.KernelIdeal.Frame
import proofs.«104634_j38792144618153_2_alg».proof.Proof.Gen.ReferenceIdeal
import proofs.«104634_j38792144618153_2_alg».proof.Proof.Gen.ReferenceIdeal.Run
import proofs.«104634_j38792144618153_2_alg».proof.Proof.Gen.ReferenceIdeal.Read
import proofs.«104634_j38792144618153_2_alg».proof.Proof.Gen.Pre_finite_inputs
import proofs.«104634_j38792144618153_2_alg».proof.Proof.KernelValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

/-- From memories agreeing on the five arguments both programs end with the result buffer at one term of those
    arguments: the kernel's by `run_value`, the reference's by its run read one operation at a time. -/
theorem algebraic : Cert.algebraic_KernelIdeal_ReferenceIdeal := by
  intro m ρ m' ρ' _ hagree
  refine ⟨_, Cert.KernelIdeal.Whole.run_value m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2]
  exact Cert.ReferenceIdeal.Read.val_main_v30_eq _ _ _ _ _

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
